-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S10000x256 .f32) (main_arg1 : FVec F S10000x10000 .f32) (main_arg2 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S10000x256 : Shape := ⟨2, ![10000, 256]⟩
abbrev S10000x10000 : Shape := ⟨2, ![10000, 10000]⟩
abbrev S256x256 : Shape := ⟨2, ![256, 256]⟩
abbrev S400x10000 : Shape := ⟨2, ![400, 10000]⟩
abbrev S400x256 : Shape := ⟨2, ![400, 256]⟩

abbrev nBuf : Space → Nat
  | .hbm => 4
  | .vmem => 7
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S400x10000, .f32⟩
  | .local _ .vmem, ⟨3, _⟩ => ⟨S400x10000, .f32⟩
  | .local _ .vmem, ⟨4, _⟩ => ⟨S400x256, .f32⟩
  | .local _ .vmem, ⟨5, _⟩ => ⟨S400x256, .f32⟩
  | .local _ .vmem, ⟨6, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  inb_S400x256_S400x256_0_0 : ∀ a, (![0, 0] : Fin 2 → Nat) a + S400x256.size a ≤ S400x256.size a
  h_S400x256 : 0 < S400x256.numel
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .f32 = 32 ∨ (Rect.block (s := S10000x256) S400x256.size (cc0_transform_3 i) (hinb0_3 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S10000x256, .f32⟩
  | .hbm, ⟨4, _⟩ => ⟨S10000x256, .f32⟩
  | .hbm, ⟨5, _⟩ => ⟨S_, .f32⟩
  | .hbm, ⟨6, _⟩ => ⟨S_, .f32⟩
  | .hbm, ⟨7, _⟩ => ⟨S10000x256, .f32⟩
  | .hbm, ⟨8, _⟩ => ⟨S10000x256, .i1⟩
  | .hbm, ⟨9, _⟩ => ⟨S_, .f32⟩
  | .hbm, ⟨10, _⟩ => ⟨S10000x256, .f32⟩
  | .hbm, ⟨11, _⟩ => ⟨S10000x256, .f32⟩
  | .hbm, ⟨12, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«127814_g30846455120381_cont_8to1_b_726_9_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.Layer.lean ====
/-
  One graph-convolution layer on the extended reals, as a function of its three arrays.

  For node features x [10000, 256], an adjacency-like matrix w [10000, 10000] and a weight W [256, 256] the layer is
      out[i, f] = leaky (Σ_k w[i, k] · s[k, f]),      s[k, f] = Σ_j x[k, j] · W[j, f],
  where leaky v keeps v when 0 ≤ v and scales it by the slope otherwise. The slope is the single-precision word nearest
  one tenth, read as the dyadic rational it denotes; it is never evaluated, since every reading of the layer uses the same
  word. The two sums are finite sums in the commutative monoid of the extended reals, so no order of summation matters and
  no finiteness of the entries is asked.
-/
import Idealize.ShloMosaic.PureOps.Ideal
import Idealize.ShloMosaic.Lib.ValueIdx

noncomputable section

open scoped BigOperators

namespace Cert.GraphConv

open Idealize.ShloMosaic Idealize.ShloMosaic.ValueIdx

/-- The leaky rectifier: v where 0 ≤ v, slope · v elsewhere (the comparison is the extended reals' order). -/
def leaky (v : EReal) : EReal :=
  Scalar.select (FloatOps.cmpf (F := Ideal) (φ := .f32) .oge v (Ideal.ofBits .f32 0x00000000#32)) v
    (Ideal.ofBits .f32 0x3DCCCCCD#32 * v)

/-- The support s = x · W at row k, column f. -/
def support (x : (⟨2, ![10000, 256]⟩ : Shape).Idx → EReal) (W : (⟨2, ![256, 256]⟩ : Shape).Idx → EReal)
    (k : Fin 10000) (f : Fin 256) : EReal :=
  ∑ j : Fin 256, x (ix2 k j) * W (ix2 j f)

/-- The aggregate (w · s) at row i, column f, before the rectifier. -/
def aggregate (x : (⟨2, ![10000, 256]⟩ : Shape).Idx → EReal) (w : (⟨2, ![10000, 10000]⟩ : Shape).Idx → EReal)
    (W : (⟨2, ![256, 256]⟩ : Shape).Idx → EReal) (i : Fin 10000) (f : Fin 256) : EReal :=
  ∑ k : Fin 10000, w (ix2 i k) * support x W k f

/-- THE LAYER: entry (i, f) of leaky (w · (x · W)). -/
def layer (x : (⟨2, ![10000, 256]⟩ : Shape).Idx → EReal) (w : (⟨2, ![10000, 10000]⟩ : Shape).Idx → EReal)
    (W : (⟨2, ![256, 256]⟩ : Shape).Idx → EReal) : (⟨2, ![10000, 256]⟩ : Shape).Idx → EReal :=
  fun i => leaky (aggregate x w W (i 0) (i 1))

theorem layer_ix2 (x : (⟨2, ![10000, 256]⟩ : Shape).Idx → EReal) (w : (⟨2, ![10000, 10000]⟩ : Shape).Idx → EReal)
    (W : (⟨2, ![256, 256]⟩ : Shape).Idx → EReal) (i : Fin 10000) (f : Fin 256) :
    layer x w W (ix2 i f) = leaky (aggregate x w W i f) := rfl

end Cert.GraphConv

end
-- ==== Proof.KernelBody.lean ====
/-
  What one grid point of the kernel computes.

  At a grid point the body reads the whole feature array x [10000, 256], the whole weight W [256, 256] and one block of 400
  rows of w [400, 10000]. It first forms the support s = x · W (all 10000 rows) and keeps it in a scratch array, then reads
  the scratch back and stores leaky (w_block · s) as the point's block of 400 output rows. The scratch is overwritten whole
  before it is read, so what the point stores is a function of the three blocks alone: nothing is carried from one grid point
  to the next.

  Over the extended reals a change of float format is the identity and the matrix unit started from zero is a plain sum of
  products, so entry (p, f) of the stored block is leaky (Σ_k w_block[p, k] · (Σ_j x[k, j] · W[j, f])).
-/
import proofs.«127814_g30846455120381_cont_8to1_b_726_9_alg».proof.Proof.Gen.KernelIdeal.Frame
import Idealize.ShloMosaic.Lib.Pipeline.Value
import proofs.«127814_g30846455120381_cont_8to1_b_726_9_alg».proof.Proof.LibDotInnerHost
import proofs.«127814_g30846455120381_cont_8to1_b_726_9_alg».proof.Proof.Layer

set_option maxRecDepth 16384

noncomputable section

open scoped BigOperators

namespace Cert.KernelIdeal.Body

open Cert.KernelIdeal Cert.KernelIdeal.Gen Idealize.ShloMosaic Idealize.ShloMosaic.TcCoe Idealize.ShloMosaic.Tactic Idealize.SL.Sem
open Idealize.ShloMosaic.ValueIdx Idealize.ShloMosaic.DotInner

/-- The origin of a rank-2 rectangle. -/
theorem origin_zero : (![0, 0] : Fin 2 → Nat) = fun _ => 0 := funext fun a => by fin_cases a <;> rfl

section AnyFloat

variable {F : FTy → Type} [FloatOps F]

/-- WHAT A GRID POINT LEAVES in the output's staging buffer: its one store covers the whole block, and the stored value is
    the second stage of the body applied to the w block and to the first stage (the support) of x and W — the support read
    back from the scratch array is exactly what was just stored there. -/
theorem stored_block (c : Dev nD) (i : grid0.Coords) (arg1 : Memref sig .tc .vmem S10000x256 .f32) (harg1 : arg1.IsWhole)
    (arg2 : Memref sig .tc .vmem S256x256 .f32) (harg2 : arg2.IsWhole) (arg3 : Memref sig .tc .vmem S400x10000 .f32) (harg3 : arg3.IsWhole)
    (arg4 : Memref sig .tc .vmem S400x256 .f32) (harg4 : arg4.IsWhole) (arg5 : Memref sig .tc .vmem S10000x256 .bf16) (harg5 : arg5.IsWhole)
    (x0 : Vec F S10000x256 .f32) (x1 : Vec F S256x256 .f32) (x2 : Vec F S400x10000 .f32) :
    out0_A_3 c i arg1 harg1 arg2 harg2 arg3 harg3 arg4 harg4 arg5 harg5 x0 x1 x2 = k0_pay2 x2 (k0_pay1 x0 x1) := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero (S := S400x256) origin_zero, View.readCov_unit_zero (S := S10000x256) _ origin_zero]
  simp only [View.readAt_eq_ld, harg1.read_unread, harg2.read_unread, harg3.read_unread,
    View.ld_unit_zero (S := S10000x256) origin_zero, View.ld_unit_zero (S := S256x256) origin_zero,
    View.ld_unit_zero (S := S400x10000) origin_zero]

end AnyFloat

/-- The support's product is rows by columns: x's axis 1 against W's axis 0. -/
theorem support_plain : Plain dot_S10000x256_S256x256_S10000x256_1_0_0_1_n_n :=
  plain_record dot_S10000x256_S256x256_S10000x256_1_0_0_1_n_n, S10000x256, S256x256

/-- The aggregate's product is rows by columns: the w block's axis 1 against the support's axis 0. -/
theorem aggregate_plain : Plain dot_S400x10000_S10000x256_S400x256_1_0_0_1_n_n :=
  plain_record dot_S400x10000_S10000x256_S400x256_1_0_0_1_n_n, S400x10000, S10000x256

/-- THE SUPPORT at (k, f): Σ_j x[k, j] · W[j, f] — the narrowings to the short format and the same-shape recast are the
    identity on the extended reals. -/
theorem support_entry (x0 : Vec Ideal S10000x256 .f32) (x1 : Vec Ideal S256x256 .f32) (k : Fin 10000) (f : Fin 256) :
    k0_pay1 (F := Ideal) x0 x1 (ix2 k f) = ∑ j : Fin 256, x0 (ix2 k j) * x1 (ix2 j f) := by
  unfold k0_pay1
  refine (congrFun (shapeCast_self _ _) (ix2 k f)).trans ?_
  exact support_plain.matmul_zero (φ₁ := .bf16) (φ₂ := .bf16) none x0 x1 k f

/-- THE STORED BLOCK at (p, f): leaky (Σ_k w_block[p, k] · s[k, f]) for whatever support array s the scratch holds. -/
theorem block_entry (x2 : Vec Ideal S400x10000 .f32) (s : Vec Ideal S10000x256 .bf16) (p : Fin 400) (f : Fin 256) :
    k0_pay2 (F := Ideal) x2 s (ix2 p f) = Cert.GraphConv.leaky (∑ k : Fin 10000, x2 (ix2 p k) * s (ix2 k f)) := by
  unfold k0_pay2
  exact congrArg Cert.GraphConv.leaky (aggregate_plain.matmul_zero (φ₁ := .bf16) (φ₂ := .bf16) none x2 s p f)

end Cert.KernelIdeal.Body

end
-- ==== Proof.KernelArray.lean ====
/-
  From the blocks the grid points store to the whole output array.

  The grid has 25 points. At point t the kernel sees the whole of x and of W (their block index is (0, 0) at every
  point) and rows 400·t … 400·t + 399 of w, and writes back rows 400·t … 400·t + 399 of the output. So row r of the output
  is written by point r / 400, every row is written by some point, and what a point writes at (p, f) is the layer's value at
  row 400·t + p: the sum over k runs over the same row of w, and the support does not depend on the point at all. Hence the
  output array after the run is the layer of the three argument arrays.
-/
import proofs.«127814_g30846455120381_cont_8to1_b_726_9_alg».proof.Proof.Gen.KernelIdeal.Value
import proofs.«127814_g30846455120381_cont_8to1_b_726_9_alg».proof.Proof.KernelBody

set_option maxRecDepth 16384

noncomputable section

open scoped BigOperators

namespace Cert.KernelIdeal.Array

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The block indices at every grid point: x and W always at block (0, 0); w and the output at block (t, 0). -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block of x a point sees is x itself. -/
theorem x_block_at (c : Dev nD) (t : Fin cfg0.N) (k : Fin 10000) (j : Fin 256) :
    iblk m c 0 t (ix2 k j) = V m c main_arg0 (ix2 k j) := by
  show V m c main_arg0 (((cfg0.win 0).blk t).view.emb (ix2 k j)) = V m c main_arg0 (ix2 k j)
  obtain ⟨e0, e1, -⟩ := block_indices t
  refine congrArg _ (funext fun a => Fin.ext ?_)
  match a with
  | ⟨0, _⟩ => show win0_0.index t (0 : Fin 2) * 10000 + 1 * k.val = k.val; omega
  | ⟨1, _⟩ => show win0_0.index t (1 : Fin 2) * 256 + 1 * j.val = j.val; omega

/-- The block of W a point sees is W itself. -/
theorem W_block_at (c : Dev nD) (t : Fin cfg0.N) (j : Fin 256) (f : Fin 256) :
    iblk m c 1 t (ix2 j f) = V m c main_arg2 (ix2 j f) := by
  show V m c main_arg2 (((cfg0.win 1).blk t).view.emb (ix2 j f)) = V m c main_arg2 (ix2 j f)
  obtain ⟨-, -, e0, e1, -⟩ := block_indices t
  refine congrArg _ (funext fun a => Fin.ext ?_)
  match a with
  | ⟨0, _⟩ => show win0_1.index t (0 : Fin 2) * 256 + 1 * j.val = j.val; omega
  | ⟨1, _⟩ => show win0_1.index t (1 : Fin 2) * 256 + 1 * f.val = f.val; omega

/-- The block of w point t sees holds rows 400·t … 400·t + 399 of w. -/
theorem w_block_at (c : Dev nD) (t : Fin cfg0.N) (p : Fin 400) (k : Fin 10000) (r : Fin 10000) (hr : r.val = t.val * 400 + p.val) :
    iblk m c 2 t (ix2 p k) = V m c main_arg1 (ix2 r k) := by
  show V m c main_arg1 (((cfg0.win 2).blk t).view.emb (ix2 p k)) = V m c main_arg1 (ix2 r k)
  obtain ⟨-, -, -, -, e0, e1, -⟩ := block_indices t
  refine congrArg _ (funext fun a => Fin.ext ?_)
  match a with
  | ⟨0, _⟩ => show win0_2.index t (0 : Fin 2) * 400 + 1 * p.val = r.val; omega
  | ⟨1, _⟩ => show win0_2.index t (1 : Fin 2) * 10000 + 1 * k.val = k.val; omega

/-- Entry (p, f) of the output block of point t sits at row 400·t + p, column f of the output array. -/
theorem out_block_at (t : Fin cfg0.N) (p : Fin 400) (f : Fin 256) (r : Fin 10000) (hr : r.val = t.val * 400 + p.val) :
    ((cfg0.win 3).blk t).view.emb (ix2 p f) = ix2 r f := by
  obtain ⟨-, -, -, -, -, -, e0, e1⟩ := block_indices t
  refine funext fun a => Fin.ext ?_
  match a with
  | ⟨0, _⟩ => show win0_3.index t (0 : Fin 2) * 400 + 1 * p.val = r.val; omega
  | ⟨1, _⟩ => show win0_3.index t (1 : Fin 2) * 256 + 1 * f.val = f.val; omega

/-- WHAT POINT t WRITES BACK is block t of the layer of the argument arrays. -/
theorem flushed_eq (c : Dev nD) (t : Fin cfg0.N) :
    (dats m 0 c).flushed 3 t
      = ((cfg0.win 3).blk t).view.read (Elt Ideal) (Cert.GraphConv.layer (V m c main_arg0) (V m c main_arg1) (V m c main_arg2)) := by
  rw [Cert.KernelIdeal.Value.flushed3_A, Cert.KernelIdeal.Body.stored_block]
  funext j
  obtain ⟨p, f, rfl⟩ : ∃ (p : Fin 400) (f : Fin 256), j = ix2 p f := ⟨j 0, j 1, eq_ix2 j⟩
  have ht : t.val < 25 := t.isLt
  have hp : p.val < 400 := p.isLt
  obtain ⟨r, hr⟩ : ∃ r : Fin 10000, r.val = t.val * 400 + p.val := ⟨⟨t.val * 400 + p.val, by omega⟩, rfl⟩
  show k0_pay2 (F := Ideal) (iblk m c 2 t) (k0_pay1 (F := Ideal) (iblk m c 0 t) (iblk m c 1 t)) (ix2 p f)
    = Cert.GraphConv.layer (V m c main_arg0) (V m c main_arg1) (V m c main_arg2) (((cfg0.win 3).blk t).view.emb (ix2 p f))
  rw [out_block_at t p f r hr, Cert.GraphConv.layer_ix2]
  refine (Cert.KernelIdeal.Body.block_entry (iblk m c 2 t) (k0_pay1 (F := Ideal) (iblk m c 0 t) (iblk m c 1 t)) p f).trans ?_
  refine congrArg Cert.GraphConv.leaky (Finset.sum_congr rfl fun k _ => ?_)
  rw [w_block_at m c t p k r hr]
  refine congrArg _ ?_
  refine (Cert.KernelIdeal.Body.support_entry (iblk m c 0 t) (iblk m c 1 t) k f).trans ?_
  refine Finset.sum_congr rfl fun j _ => ?_
  rw [x_block_at m c t k j, W_block_at m c t j f]

/-- An index of the output array is in point t's block iff each coordinate is in the block's range on its axis. -/
theorem mem_block (t : Fin cfg0.N) (i : S10000x256.Idx) :
    i ∈ ((cfg0.win 3).blk t).view.set
      ↔ ∀ a : Fin 2, win0_3.index t a * S400x256.size a ≤ (i a).val ∧ (i a).val < win0_3.index t a * S400x256.size a + S400x256.size a := by
  show i ∈ ((View.whole main_v0).slice (win0_3.rect t)).set ↔ _
  rw [View.set_slice_whole, Rect.mem_set_unit]
  exact Iff.rfl

/-- EVERY ENTRY IS WRITTEN: row r lies in the block of point r / 400. -/
theorem covered (i : S10000x256.Idx) :
    ∃ t : Fin cfg0.N, (cfg0.win 3).flush t = true ∧ i ∈ ((cfg0.win 3).blk t).view.set := by
  have h0 : (i 0).val < 10000 := (i 0).isLt
  have h1 : (i 1).val < 256 := (i 1).isLt
  obtain ⟨t, ht⟩ : ∃ t : Fin cfg0.N, t.val = (i 0).val / 400 := ⟨⟨(i 0).val / 400, by show _ < 25; omega⟩, rfl⟩
  refine ⟨t, flush0_3 t, ?_⟩
  rw [mem_block]
  obtain ⟨-, -, -, -, -, -, e0, e1⟩ := block_indices t
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 256 ≤ (i 1).val ∧ (i 1).val < win0_3.index t (1 : Fin 2) * 256 + 256; omega

/-- THE OUTPUT ARRAY after the run is the layer of the three argument arrays. -/
theorem final (c : Dev nD) :
    (dats m 0 c).arrAt 3 cfg0.N
      = Cert.GraphConv.layer (m ((c : Thread nD τ).loc main_arg0)) (m ((c : Thread nD τ).loc main_arg1)) (m ((c : Thread nD τ).loc main_arg2)) :=
  (dats m 0 c).arrAt_eq_of_cover 3 _ (fun t _ => flushed_eq m c t) covered

/-- THE KERNEL'S RUN: every weakly fair execution terminates with the result array at the layer of the argument arrays and
    the arguments unchanged. -/
theorem run : θ_run defs (onTc (τ := τ) (main (F := Ideal))) ⟨m, fun _ => 0, ρ⟩ fun r => ∀ c : Dev nD,
      r.2.mem ((c : Thread nD τ).loc main_v0)
          = Cert.GraphConv.layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Array

end
-- ==== Proof.ReferenceRun.lean ====
/-
  The reference program as a straight line of host operations, and its run.

  The reference multiplies x by W, multiplies w by the result, and applies the leaky rectifier, which the program states as
  a function of its own that in turn calls a select function. A call executes the callee's lines on the operands, so with both
  bodies written out at their call sites the program is ten operations in a row: two matrix products, the slope constant, then the
  rectifier's seven lines (a zero, its splat, the comparison against it, the slope passed through, its splat, the product
  with the slope, the select). Every weakly fair execution of such a line terminates, and each buffer ends at the
  composition of the operations that wrote it, applied to the argument arrays; the arguments are written by none of them.
-/
import proofs.«127814_g30846455120381_cont_8to1_b_726_9_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The program's ten operations, in order. -/
abbrev ops : List (HloOp τ sig (Elt F)) :=
  [ binary main_arg0 main_arg2 main_v0 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    binary main_arg1 main_v0 main_v1 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    nullary main_cst (constant S_ .f32 0x3DCCCCCD#32),
    TRef.nullary main_call0.cst (constant S_ .f32 0x00000000#32),
    TRef.unary main_call0.cst main_call0.v0 (broadcastInDim S10000x256 ![] bcast_S_S10000x256),
    TRef.binary (.of main_v1) main_call0.v0 main_call0.v1 (cmpf .oge),
    TRef.unary (.of main_cst) main_call0.v2 id,
    TRef.unary main_call0.v2 main_call0.v3 (broadcastInDim S10000x256 ![] bcast_S_S10000x256),
    TRef.binary main_call0.v3 (.of main_v1) main_call0.v4 mulf,
    TRef.ternary main_call0.v1 (.of main_v1) main_call0.v4 main_call0.call0.v0 select ]

/-- The program is that line: both outlined bodies unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., nullary_bufs_sub .., nullary_bufs_sub .., unary_bufs_sub .., binary_bufs_sub ..,
    unary_bufs_sub .., unary_bufs_sub .., binary_bufs_sub .., ternary_bufs_sub ..⟩

/-- What the line leaves in the result buffer, as a function of the three argument arrays: the rectifier's select of
    the comparison with the zero splat, the aggregate, and the slope splat times the aggregate. -/
def out (x : (⟨S10000x256, .f32⟩ : BufTy).Contents (Elt F)) (w : (⟨S10000x10000, .f32⟩ : BufTy).Contents (Elt F))
    (W : (⟨S256x256, .f32⟩ : BufTy).Contents (Elt F)) : (⟨S10000x256, .f32⟩ : BufTy).Contents (Elt F) :=
  let s : (⟨S10000x256, .f32⟩ : BufTy).Contents (Elt F) := Host.dotGeneral dot_S10000x256_S256x256_S10000x256_1_0_0_1_n_n none x W
  let a : (⟨S10000x256, .f32⟩ : BufTy).Contents (Elt F) := Host.dotGeneral dot_S10000x10000_S10000x256_S10000x256_1_0_0_1_n_n none w s
  select (cmpf .oge a (broadcastInDim S10000x256 ![] bcast_S_S10000x256 (constant S_ .f32 0x00000000#32))) a
    (mulf (broadcastInDim S10000x256 ![] bcast_S_S10000x256 (constant S_ .f32 0x3DCCCCCD#32)) a)

/-- Every weakly fair execution of the program terminates with the result buffer at `out` of the arguments' launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (by simp only [after_cons, after_nil]; rfl),
      (h c main_arg0).trans (by simp only [after_cons, after_nil]; rfl),
      (h c main_arg1).trans (by simp only [after_cons, after_nil]; rfl),
      (h c main_arg2).trans (by simp only [after_cons, after_nil]; rfl)⟩)
    (run_seq scopedRefs_eq scopedSems_eq defs main (fun _ => ops) main_eq (fun _ => ops_sub) m ρ)

end Cert.ReferenceIdeal.Line

end
-- ==== Proof.ReferenceValue.lean ====
/-
  The reference's result is the layer.

  Read at entry (i, f), the reference's result term is the select of three things: the comparison of the aggregate with the
  splat of zero, the aggregate itself, and the splat of the slope times the aggregate — the leaky rectifier of the aggregate,
  in the very spelling the layer's definition uses. The aggregate is the host's matrix product of w with the host's product
  of x with W; over the extended reals each host product is the plain sum over the contracted index, so the aggregate at
  (i, f) is Σ_k w[i, k] · (Σ_j x[k, j] · W[j, f]).
-/
import proofs.«127814_g30846455120381_cont_8to1_b_726_9_alg».proof.Proof.ReferenceRun
import proofs.«127814_g30846455120381_cont_8to1_b_726_9_alg».proof.Proof.LibDotInnerHost
import proofs.«127814_g30846455120381_cont_8to1_b_726_9_alg».proof.Proof.Layer
import Idealize.ShloMosaic.Lib.Pipeline.Value

set_option maxRecDepth 16384

noncomputable section

open scoped BigOperators

namespace Cert.ReferenceIdeal.Entry

open Cert.ReferenceIdeal Cert.ReferenceIdeal.Gen Idealize.ShloMosaic Idealize.ShloMosaic.TcCoe
open Idealize.ShloMosaic.ValueIdx Idealize.ShloMosaic.DotInner

/-- The first product is rows by columns: x's axis 1 against W's axis 0. -/
theorem support_plain : Plain dot_S10000x256_S256x256_S10000x256_1_0_0_1_n_n :=
  plain_record dot_S10000x256_S256x256_S10000x256_1_0_0_1_n_n, S10000x256, S256x256

/-- The second product is rows by columns: w's axis 1 against the support's axis 0. -/
theorem aggregate_plain : Plain dot_S10000x10000_S10000x256_S10000x256_1_0_0_1_n_n :=
  plain_record dot_S10000x10000_S10000x256_S10000x256_1_0_0_1_n_n, S10000x10000, S10000x256

/-- A scalar constant splat over the array reads, at every index, the value its word denotes. -/
theorem splat_apply (b : BitVec 32) (i : S10000x256.Idx) :
    broadcastInDim S10000x256 ![] bcast_S_S10000x256 (constant (F := Ideal) S_ .f32 b) i = Ideal.ofBits .f32 b :=
  broadcastInDim_apply ![] bcast_S_S10000x256 (constant (F := Ideal) S_ .f32 b) i ix0 (fun a => a.elim0)

/-- The host's aggregate at (i, f): Σ_k w[i, k] · (Σ_j x[k, j] · W[j, f]). -/
theorem aggregate_entry (x : FVec Ideal S10000x256 .f32) (w : FVec Ideal S10000x10000 .f32) (W : FVec Ideal S256x256 .f32)
    (i : Fin 10000) (f : Fin 256) :
    Host.dotGeneral (F := Ideal) dot_S10000x10000_S10000x256_S10000x256_1_0_0_1_n_n none w
        (Host.dotGeneral (F := Ideal) dot_S10000x256_S256x256_S10000x256_1_0_0_1_n_n none x W) (ix2 i f)
      = Cert.GraphConv.aggregate x w W i f := by
  refine (aggregate_plain.dotGeneral (φ₁ := .f32) (φ₂ := .f32) none w _ i f).trans ?_
  unfold Cert.GraphConv.aggregate
  refine Finset.sum_congr rfl fun k _ => congrArg _ ?_
  exact support_plain.dotGeneral (φ₁ := .f32) (φ₂ := .f32) none x W k f

/-- THE REFERENCE'S RESULT, as a function of the three argument arrays, is the layer. -/
theorem out_eq_layer (x : FVec Ideal S10000x256 .f32) (w : FVec Ideal S10000x10000 .f32) (W : FVec Ideal S256x256 .f32) :
    Cert.ReferenceIdeal.Line.out (F := Ideal) x w W = Cert.GraphConv.layer x w W := by
  funext j
  obtain ⟨i, f, rfl⟩ : ∃ (i : Fin 10000) (f : Fin 256), j = ix2 i f := ⟨j 0, j 1, eq_ix2 j⟩
  rw [Cert.GraphConv.layer_ix2, ← aggregate_entry x w W i f]
  unfold Cert.ReferenceIdeal.Line.out Cert.GraphConv.leaky
  dsimp only
  rw [select_apply, cmpf_apply, mulf_apply, splat_apply, splat_apply]

end Cert.ReferenceIdeal.Entry

end
-- ==== Proof.lean ====
/-
  The kernel and its reference compute the same graph-convolution layer.

  The claim has five parts. The three frame parts say each program terminates without a fault and leaves its argument arrays
  as they were: for the two kernel programs this is the generated frame of the pipelined region, for the reference it is its
  run as a straight line of host operations with the result forgotten. The idealized kernel is the kernel's own text read
  over the extended reals (no operation was rewritten), so that part asks nothing.

  The value part: over the extended reals, from memories that agree on x, w and W, both programs end with the same result
  array. The kernel's 25 grid points each store 400 rows of leaky (w · (x · W)) and together cover the output, so its result
  array is the layer of the three arrays; the reference's result term, read entry by entry, is the same layer. Both sides
  sum the same products in the same arrangement, so nothing beyond the commutative-monoid structure of the sums is used
  and the finiteness of the inputs is never opened.
-/
import proofs.«127814_g30846455120381_cont_8to1_b_726_9_alg».proof.Defs
import proofs.«127814_g30846455120381_cont_8to1_b_726_9_alg».proof.Proof.Gen.Kernel
import proofs.«127814_g30846455120381_cont_8to1_b_726_9_alg».proof.Proof.Gen.Kernel.Skeleton
import proofs.«127814_g30846455120381_cont_8to1_b_726_9_alg».proof.Proof.Gen.Kernel.Launch
import proofs.«127814_g30846455120381_cont_8to1_b_726_9_alg».proof.Proof.Gen.Kernel.Points
import proofs.«127814_g30846455120381_cont_8to1_b_726_9_alg».proof.Proof.Gen.Kernel.Frame
import proofs.«127814_g30846455120381_cont_8to1_b_726_9_alg».proof.Proof.Gen.KernelIdeal
import proofs.«127814_g30846455120381_cont_8to1_b_726_9_alg».proof.Proof.Gen.KernelIdeal.Skeleton
import proofs.«127814_g30846455120381_cont_8to1_b_726_9_alg».proof.Proof.Gen.KernelIdeal.Launch
import proofs.«127814_g30846455120381_cont_8to1_b_726_9_alg».proof.Proof.Gen.KernelIdeal.Points
import proofs.«127814_g30846455120381_cont_8to1_b_726_9_alg».proof.Proof.Gen.KernelIdeal.Frame
import proofs.«127814_g30846455120381_cont_8to1_b_726_9_alg».proof.Proof.Gen.KernelIdeal.Value
import proofs.«127814_g30846455120381_cont_8to1_b_726_9_alg».proof.Proof.Gen.ReferenceIdeal
import proofs.«127814_g30846455120381_cont_8to1_b_726_9_alg».proof.Proof.Gen.Pre_finite_inputs
import proofs.«127814_g30846455120381_cont_8to1_b_726_9_alg».proof.Proof.KernelArray
import proofs.«127814_g30846455120381_cont_8to1_b_726_9_alg».proof.Proof.ReferenceValue
import Idealize.ShloMosaic.Adequacy
import Idealize.ShloMosaic.Init

noncomputable section

namespace Cert.Proof

open Idealize.ShloMosaic Idealize.SL.Sem

/-- The kernel as printed terminates and keeps its arguments: the generated frame of its region. -/
theorem frame_kernel : Cert.frame_Kernel := fun m ρ _ => Cert.Kernel.Gen.frame m ρ

/-- The kernel read over the extended reals likewise. -/
theorem frame_kernel_ideal : Cert.frame_KernelIdeal := fun m ρ _ => Cert.KernelIdeal.Gen.frame m ρ

/-- The reference terminates and keeps its arguments: its run as a line of host operations, the result forgotten. -/
theorem frame_reference : Cert.frame_ReferenceIdeal := fun m ρ _ =>
  (θ_run Cert.ReferenceIdeal.defs _ _).mono (fun _ h c => (h c).2) (Cert.ReferenceIdeal.Line.run (F := Ideal) m ρ)

/-- No operation of the kernel was rewritten when it was read over the extended reals. -/
theorem preserves : Cert.preserves_Kernel_KernelIdeal := trivial

/-- Both programs end with the layer of the argument arrays in their result buffers. -/
theorem algebraic : Cert.algebraic_KernelIdeal_ReferenceIdeal := by
  intro m ρ m' ρ' _ hagree
  refine ⟨fun c => Cert.GraphConv.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Array.run m ρ, ?_⟩
  refine (θ_run Cert.ReferenceIdeal.defs _ _).mono (fun _ h c => ⟨(h c).1.trans ?_, (h c).2⟩)
    (Cert.ReferenceIdeal.Line.run (F := Ideal) m' ρ')
  rw [(hagree c).1, (hagree c).2.1, (hagree c).2.2]
  exact Cert.ReferenceIdeal.Entry.out_eq_layer _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
